-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel

variable [Facts]

def fn {F : FTy → Type} [FloatOps F] (main_arg0 : FVec F S8x2048x128 .f32) (main_arg1 : FVec F S8x2048x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  main_v8
-- ==== Kernel.lean ====
abbrev S8x2048x128 : Shape := ⟨3, ![8, 2048, 128]⟩
abbrev S1x2048x128 : Shape := ⟨3, ![1, 2048, 128]⟩
abbrev S2048x2048 : Shape := ⟨2, ![2048, 2048]⟩
abbrev S2048x128 : Shape := ⟨2, ![2048, 128]⟩
abbrev S1x256x128 : Shape := ⟨3, ![1, 256, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩
abbrev S1x256 : Shape := ⟨2, ![1, 256]⟩

abbrev nBuf : Space → Nat
  | .hbm => 4
  | .vmem => 9
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x128, .f32⟩
  | .hbm, ⟨3, _⟩ => ⟨S8x2048x128, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S2048x2048, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  v8
def k0_off1 (k0_t1 : Fin k0_t1_loop.trips) : Fin 3 → Nat :=
  let c0_10 : Index := 0#32
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let v10 : Index := Scalar.indexCast v9
  let c0_11 : Index := 0#32
  ![0, v10.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v8 : BitVec 32 := Scalar.muli arg6 c256_i32
  let v9 : BitVec 32 := v8
  let v15 : Index := Scalar.indexCast v9
  let c0_12 : Index := 0#32
  ![v15.toNat, 0]
@[reducible] def k0_t2_loop : Scf.Loop 32 :=
  let c0_i32_6 : BitVec 32 := 0#32
  let c8_i32_7 : BitVec 32 := 8#32
  let v7 : BitVec 32 := Scalar.addi c0_i32_6 c8_i32_7
  let c1_i32_8 : BitVec 32 := 1#32
  ⟨c0_i32_6, v7, c1_i32_8⟩
def k0_mult2 (k0_t2 : Fin k0_t2_loop.trips) : BitVec 32 :=
  let c0_i32_6 : BitVec 32 := 0#32
  let c1_i32_8 : BitVec 32 := 1#32
  let arg6 : BitVec 32 := Scf.iv c0_i32_6 c1_i32_8 k0_t2
  let c256_i32 : BitVec 32 := 256#32
  let v8 : BitVec 32 := Scalar.muli arg6 c256_i32
  v8
def k0_off3 (k0_t2 : Fin k0_t2_loop.trips) : Fin 2 → Nat :=
  let c0_10 : Index := 0#32
  let c0_i32_6 : BitVec 32 := 0#32
  let c1_i32_8 : BitVec 32 := 1#32
  let arg6 : BitVec 32 := Scf.iv c0_i32_6 c1_i32_8 k0_t2
  let c256_i32 : BitVec 32 := 256#32
  let v8 : BitVec 32 := Scalar.muli arg6 c256_i32
  let v9 : BitVec 32 := v8
  let v10 : Index := Scalar.indexCast v9
  ![0, v10.toNat]
def k0_off4 (k0_t2 : Fin k0_t2_loop.trips) : Fin 3 → Nat :=
  let c0_13 : Index := 0#32
  let c0_i32_6 : BitVec 32 := 0#32
  let c1_i32_8 : BitVec 32 := 1#32
  let arg6 : BitVec 32 := Scf.iv c0_i32_6 c1_i32_8 k0_t2
  let c256_i32 : BitVec 32 := 256#32
  let v8 : BitVec 32 := Scalar.muli arg6 c256_i32
  let v9 : BitVec 32 := v8
  let v23 : Index := Scalar.indexCast v9
  let c0_14 : Index := 0#32
  ![0, v23.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  h_S1x256x128 : 0 < S1x256x128.numel
  shapeCasts_S1x256x128_S256x128 : S1x256x128.ShapeCasts S256x128
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x128_S1x256x128 : S256x128.ShapeCasts S1x256x128
  h_S2048x256 : 0 < S2048x256.numel
  reduces_S2048x256_S256 : S2048x256.Reduces [0] S256
  shapeCasts_S256_S1x256 : S256.ShapeCasts S1x256
  broadcasts_S1x256_S2048x256 : S1x256.Broadcasts S2048x256
  dot_S256x128_S2048x128_S256x2048_1_1_0_0_n_n_wf : DotDims.WF S256x128 S2048x128 S256x2048 [1] [1] [0] [0] [] []
  dot_S256x2048_S2048x128_S256x128_1_0_0_1_n_n_wf : DotDims.WF S256x2048 S2048x128 S256x128 [1] [0] [0] [1] [] []
  dot_S2048x256_S2048x128_S256x128_0_0_1_1_n_n_wf : DotDims.WF S2048x256 S2048x128 S256x128 [0] [0] [1] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x128.size a ≤ S1x2048x128.size a
  k0_off2_inb : ∀ k0_t1 : Fin k0_t1_loop.trips, ∀ a, (k0_off2 k0_t1) a + S256x2048.size a ≤ S2048x2048.size a
  k0_t2_ok : k0_t2_loop.OK
  k0_mult2_dvd : ∀ k0_t2 : Fin k0_t2_loop.trips, 256 ∣ (k0_mult2 k0_t2).toNat
  k0_off3_inb : ∀ k0_t2 : Fin k0_t2_loop.trips, ∀ a, (k0_off3 k0_t2) a + S2048x256.size a ≤ S2048x2048.size a
  k0_off4_inb : ∀ k0_t2 : Fin k0_t2_loop.trips, ∀ a, (k0_off4 k0_t2) a + S1x256x128.size a ≤ S1x2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S8x2048x128.size a
  hwx0_0 : ∀ i : grid0.Coords, EltTy.bits .f32 = 32 ∨ (Rect.block (s := S8x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x128.size a
  hwx0_1 : ∀ i : grid0.Coords, EltTy.bits .f32 = 32 ∨ (Rect.block (s := S8x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x128.size a
  hwx0_2 : ∀ i : grid0.Coords, EltTy.bits .f32 = 32 ∨ (Rect.block (s := S8x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x2048x128.size a
  hwx0_3 : ∀ i : grid0.Coords, EltTy.bits .f32 = 32 ∨ (Rect.block (s := S8x2048x128) S1x2048x128.size (cc0_transform_3 i) (hinb0_3 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf
def dot_S2048x256_S2048x128_S256x128_0_0_1_1_n_n : DotDims S2048x256 S2048x128 S256x128 where
  lhsContracting := [0]
  rhsContracting := [0]
  lhsNonContracting := [1]
  rhsNonContracting := [1]
  lhsBatch := []
  rhsBatch := []
  wf := dot_S2048x256_S2048x128_S256x128_0_0_1_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x2048x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S8x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x1x2048, .f32⟩
  | .hbm, ⟨29, _⟩ => ⟨S8x2048x2048, .f32⟩
  | .hbm, ⟨30, _⟩ => ⟨S8x2048x2048, .f32⟩
  | .hbm, ⟨31, _⟩ => ⟨S8x2048x128, .f32⟩
  | .hbm, ⟨32, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  reducesTo_S8x2048x2048_S8x2048_d1 : S8x2048x2048.ReducesTo [1] S8x2048
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]
  dot_S8x2048x2048_S8x2048x128_S8x2048x128_1_1_2_2_0_0_wf : DotDims.WF S8x2048x2048 S8x2048x128 S8x2048x128 [1] [1] [2] [2] [0] [0]

variable [Facts₀]

def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf
def dot_S8x2048x2048_S8x2048x128_S8x2048x128_1_1_2_2_0_0 : DotDims S8x2048x2048 S8x2048x128 S8x2048x128 where
  lhsContracting := [1]
  rhsContracting := [1]
  lhsNonContracting := [2]
  rhsNonContracting := [2]
  lhsBatch := [0]
  rhsBatch := [0]
  wf := dot_S8x2048x2048_S8x2048x128_S8x2048x128_1_1_2_2_0_0_wf

class Facts : Prop extends Facts₀ where

variable [Facts]
-- ==== Proof.Spec.lean ====
/-
  The mathematics of the two results, on the extended reals.

  Given two families of rows X, Y : Fin L → Fin D → EReal, the score of row i of X against row j of Y is the inner
  product ⟨X i, Y j⟩ = Σ_k X i k · Y j k.  A family of scores s is turned into weights by the shifted softmax

      w j = exp (s j − sup s) / Σ_j' exp (s j' − sup s),

  and the weights mix the rows of a matrix: Σ_j w j · M j c.  The first result attends from each row of X into Y
  (weights over j, mixing Y); the second attends from each row of Y into X (weights over i, mixing X).  Everything is
  stated for single rows, so that a result entry is seen to depend on one row of one argument and all of the other.
-/
import Idealize.ShloMosaic.PureOps.Ideal
import Idealize.ShloMosaic.Lib.ValueIdx

noncomputable section

open scoped BigOperators

namespace Cert.CrossAttn

open Idealize.ShloMosaic Idealize.ShloMosaic.ValueIdx

variable {L D : ℕ}

/-- The shifted softmax of a finite family of scores. -/
def softmax (s : Fin L → EReal) (j : Fin L) : EReal :=
  Ideal.div (Ideal.exp (s j - Finset.univ.sup s)) (∑ j' : Fin L, Ideal.exp (s j' - Finset.univ.sup s))

/-- The rows of M mixed by the softmax weights of the scores s, at column c. -/
def mix (s : Fin L → EReal) (M : Fin L → Fin D → EReal) (c : Fin D) : EReal :=
  ∑ j : Fin L, softmax s j * M j c

/-- One query row x attending into the rows of Y: the scores are ⟨x, Y j⟩. -/
def attendInto (x : Fin D → EReal) (Y : Fin L → Fin D → EReal) (c : Fin D) : EReal :=
  mix (fun j => ∑ k : Fin D, x k * Y j k) Y c

/-- The rows of X attended from one key row y: the scores are ⟨X i, y⟩. -/
def attendFrom (X : Fin L → Fin D → EReal) (y : Fin D → EReal) (c : Fin D) : EReal :=
  mix (fun i => ∑ k : Fin D, X i k * y k) X c

/-- Batch b of an [8, 2048, 128] array as a family of rows. -/
abbrev rowsOf (s : FVec Ideal ⟨3, ![8, 2048, 128]⟩ .f32) (b : Fin 8) : Fin 2048 → Fin 128 → EReal :=
  fun i k => s (ix3 b i k)

/-- The first result: entry (b, i, c) attends from row i of batch b of the first argument into batch b of the second. -/
def first (s1 s2 : FVec Ideal ⟨3, ![8, 2048, 128]⟩ .f32) : FVec Ideal ⟨3, ![8, 2048, 128]⟩ .f32 :=
  fun p => attendInto (rowsOf s1 (p 0) (p 1)) (rowsOf s2 (p 0)) (p 2)

/-- The second result: entry (b, j, c) mixes batch b of the first argument by its scores against row j of batch b of the
    second. -/
def second (s1 s2 : FVec Ideal ⟨3, ![8, 2048, 128]⟩ .f32) : FVec Ideal ⟨3, ![8, 2048, 128]⟩ .f32 :=
  fun p => attendFrom (rowsOf s1 (p 0)) (rowsOf s2 (p 0) (p 1)) (p 2)

end Cert.CrossAttn

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.RefValue.lean ====
/-
  The reference computes the specification.

  Read one operation at a time at an index (b, i, j) or (b, i, c): the batched product of the two arguments is the
  score ⟨s1 (b, i), s2 (b, j)⟩; its maximum over one axis from minus infinity, joined once more with minus infinity,
  is the supremum of the scores over that axis; subtracting, exponentiating, summing over the same axis and dividing
  give the shifted softmax weights over that axis; and the final batched product mixes the rows of the other argument
  by those weights.  Along the last axis this is the first result, along the middle axis the second.
-/
import proofs.«162619_j3066606649523_2_alg».proof.Proof.Gen.ReferenceIdeal.Read
import proofs.«162619_j3066606649523_2_alg».proof.Proof.Spec
import proofs.«162619_j3066606649523_2_alg».proof.Proof.LibPayOps

noncomputable section

open scoped BigOperators

namespace Cert.ReferenceIdeal.RefValue

open Cert.ReferenceIdeal Cert.ReferenceIdeal.Gen Cert.ReferenceIdeal.Read Idealize.ShloMosaic
open Idealize.ShloMosaic.ValueIdx Cert.CrossAttn

variable (x0 x1 : (⟨S8x2048x128, .f32⟩ : BufTy).Contents (Elt Ideal))

/-- The score of row i of batch b of the first argument against row j of batch b of the second. -/
abbrev sc (b : Fin 8) (i j : Fin 2048) : EReal := ∑ k : Fin 128, x0 (ix3 b i k) * x1 (ix3 b j k)

/-- The batched product at (b, i, j) is that score. -/
theorem score_apply (b : Fin 8) (i j : Fin 2048) :
    val_main_v0 (F := Ideal) x0 x1 (ix3 b i j) = sc x0 x1 b i j := by
  rw [val_main_v0_apply]
  refine Finset.sum_congr rfl fun k _ => ?_
  have el : lidx_main_v0 (ix3 b i j) k = ix3 b i k := funext fun a => Fin.ext (by
    match a with
    | ⟨0, _⟩ => rfl
    | ⟨1, _⟩ => rfl
    | ⟨2, _⟩ => rfl)
  have er : ridx_main_v0 (ix3 b i j) k = ix3 b j k := funext fun a => Fin.ext (by
    match a with
    | ⟨0, _⟩ => rfl
    | ⟨1, _⟩ => rfl
    | ⟨2, _⟩ => rfl)
  rw [el, er]

/-- The word 0xFF800000 at the ideal values is the bottom extended real. -/
theorem neg_inf : FloatOps.ofBits (F := Ideal) .f32 0xFF800000#32 = (⊥ : EReal) := Cert.LibPayOps.ofBits_f32_neg_inf

/-! ## Along the last axis: the weights over j -/

/-- A maximum over axis 2 of any [8, 2048, 2048] array, started from the bottom element, read at an index. -/
theorem lastTop_gen (e : S8x2048x2048.Idx → EReal) (init : S_.Idx → EReal) (hinit : init (Shape.Idx.first h_S_) = ⊥)
    (b : Fin 8) (q : Fin 2048) :
    Host.reduce (max : EReal → EReal → EReal) e init reducesTo_S8x2048x2048_S8x2048_d2 h_S_ (ix2 b q)
      = Finset.univ.sup fun k : Fin 2048 => e (ix3 b q k) := by
  have hR : S8x2048x2048.Reduces [2] S8x2048 := ⟨reducesTo_S8x2048x2048_S8x2048_d2.1, by decide, reducesTo_S8x2048x2048_S8x2048_d2.2⟩
  refine (Host.reduce_eq_fold_single (max : EReal → EReal → EReal) e init reducesTo_S8x2048x2048_S8x2048_d2 hR h_S_ (ix2 b q)).trans ?_
  rw [hinit]
  refine (Cert.LibPayOps.fold_max_bot_eq_sup _ _).trans ?_
  refine Finset.sup_congr rfl fun k _ => ?_
  exact congrArg e (funext fun d => Fin.ext (by
    match d with
    | ⟨0, _⟩ => rfl
    | ⟨1, _⟩ => rfl
    | ⟨2, _⟩ => rfl))

/-- The maximum over the last axis at (b, i) is the supremum over j of the scores. -/
theorem lastTop_apply (b : Fin 8) (i : Fin 2048) :
    val_main_v1 (F := Ideal) x0 x1 (ix2 b i) = Finset.univ.sup fun j : Fin 2048 => sc x0 x1 b i j := by
  have hs : ∀ j : Fin 2048, val_main_v0 (F := Ideal) x0 x1 (ix3 b i j) = sc x0 x1 b i j := fun j => score_apply x0 x1 b i j
  unfold val_main_v1
  generalize val_main_v0 (F := Ideal) x0 x1 = e at hs ⊢
  exact (lastTop_gen e (val_main_cst (F := Ideal)) neg_inf b i).trans (Finset.sup_congr rfl fun j _ => hs j)

/-- The exponential of the shifted score at (b, i, j). -/
theorem lastExp_apply (b : Fin 8) (i j : Fin 2048) :
    val_main_v7 (F := Ideal) x0 x1 (ix3 b i j)
      = Ideal.exp (sc x0 x1 b i j - Finset.univ.sup fun j' : Fin 2048 => sc x0 x1 b i j') := by
  have e4 : idx_main_v4 (idx_main_v5 (ix3 b i j)) = ix2 b i := funext fun a => Fin.ext (by
    match a with
    | ⟨0, _⟩ => rfl
    | ⟨1, _⟩ => rfl)
  rw [val_main_v7_apply, val_main_v6_apply, val_main_v5_apply, val_main_v4_apply, e4, val_main_v3_apply,
    val_main_v2_apply, val_main_cst_0_apply, lastTop_apply, score_apply, neg_inf]
  show Ideal.exp (sc x0 x1 b i j - max ⊥ (Finset.univ.sup fun j' : Fin 2048 => sc x0 x1 b i j')) = _
  rw [max_bot_left]

/-- The weight at (b, i, j) is the softmax over j of the scores of row i. -/
theorem lastWeight_apply (b : Fin 8) (i j : Fin 2048) :
    val_main_v11 (F := Ideal) x0 x1 (ix3 b i j) = softmax (fun j' : Fin 2048 => sc x0 x1 b i j') j := by
  have e9 : idx_main_v9 (idx_main_v10 (ix3 b i j)) = ix2 b i := funext fun a => Fin.ext (by
    match a with
    | ⟨0, _⟩ => rfl
    | ⟨1, _⟩ => rfl)
  have e8 : ∀ k : Fin 2048, idx_main_v8 (ix2 b i) k = ix3 b i k := fun k => funext fun a => Fin.ext (by
    match a with
    | ⟨0, _⟩ => rfl
    | ⟨1, _⟩ => rfl
    | ⟨2, _⟩ => rfl)
  rw [val_main_v11_apply, val_main_v10_apply, val_main_v9_apply, e9, val_main_v8_apply, val_main_cst_1_apply,
    lastExp_apply]
  simp only [e8, lastExp_apply]
  show Ideal.div _ (Ideal.ofBits .f32 0x00000000#32 + _) = _
  rw [Ideal.ofBits_zero_f32, zero_add]
  rfl

/-- The reference's first result is the first result of the specification. -/
theorem first_eq : val_main_v23 (F := Ideal) x0 x1 = first x0 x1 := by
  funext p
  obtain ⟨b, i, c, rfl⟩ : ∃ (b : Fin 8) (i : Fin 2048) (c : Fin 128), p = ix3 b i c := ⟨p 0, p 1, p 2, eq_ix3 p⟩
  rw [val_main_v23_apply]
  show _ = ∑ j : Fin 2048, softmax (fun j' : Fin 2048 => sc x0 x1 b i j') j * x1 (ix3 b j c)
  refine Finset.sum_congr rfl fun k _ => ?_
  have el : lidx_main_v23 (ix3 b i c) k = ix3 b i k := funext fun a => Fin.ext (by
    match a with
    | ⟨0, _⟩ => rfl
    | ⟨1, _⟩ => rfl
    | ⟨2, _⟩ => rfl)
  have er : ridx_main_v23 (ix3 b i c) k = ix3 b k c := funext fun a => Fin.ext (by
    match a with
    | ⟨0, _⟩ => rfl
    | ⟨1, _⟩ => rfl
    | ⟨2, _⟩ => rfl)
  rw [el, er, lastWeight_apply]

/-! ## Along the middle axis: the weights over i -/

/-- A maximum over axis 1 of any [8, 2048, 2048] array, started from the bottom element, read at an index. -/
theorem midTop_gen (e : S8x2048x2048.Idx → EReal) (init : S_.Idx → EReal) (hinit : init (Shape.Idx.first h_S_) = ⊥)
    (b : Fin 8) (q : Fin 2048) :
    Host.reduce (max : EReal → EReal → EReal) e init reducesTo_S8x2048x2048_S8x2048_d1 h_S_ (ix2 b q)
      = Finset.univ.sup fun k : Fin 2048 => e (ix3 b k q) := by
  have hR : S8x2048x2048.Reduces [1] S8x2048 := ⟨reducesTo_S8x2048x2048_S8x2048_d1.1, by decide, reducesTo_S8x2048x2048_S8x2048_d1.2⟩
  refine (Host.reduce_eq_fold_single (max : EReal → EReal → EReal) e init reducesTo_S8x2048x2048_S8x2048_d1 hR h_S_ (ix2 b q)).trans ?_
  rw [hinit]
  refine (Cert.LibPayOps.fold_max_bot_eq_sup _ _).trans ?_
  refine Finset.sup_congr rfl fun k _ => ?_
  exact congrArg e (funext fun d => Fin.ext (by
    match d with
    | ⟨0, _⟩ => rfl
    | ⟨1, _⟩ => rfl
    | ⟨2, _⟩ => rfl))

/-- The maximum over the middle axis at (b, j) is the supremum over i of the scores. -/
theorem midTop_apply (b : Fin 8) (j : Fin 2048) :
    val_main_v12 (F := Ideal) x0 x1 (ix2 b j) = Finset.univ.sup fun i : Fin 2048 => sc x0 x1 b i j := by
  have hs : ∀ i : Fin 2048, val_main_v0 (F := Ideal) x0 x1 (ix3 b i j) = sc x0 x1 b i j := fun i => score_apply x0 x1 b i j
  unfold val_main_v12
  generalize val_main_v0 (F := Ideal) x0 x1 = e at hs ⊢
  exact (midTop_gen e (val_main_cst_2 (F := Ideal)) neg_inf b j).trans (Finset.sup_congr rfl fun i _ => hs i)

/-- The exponential of the shifted score at (b, i, j), shifted by the supremum over i. -/
theorem midExp_apply (b : Fin 8) (i j : Fin 2048) :
    val_main_v18 (F := Ideal) x0 x1 (ix3 b i j)
      = Ideal.exp (sc x0 x1 b i j - Finset.univ.sup fun i' : Fin 2048 => sc x0 x1 b i' j) := by
  have e15 : idx_main_v15 (idx_main_v16 (ix3 b i j)) = ix2 b j := funext fun a => Fin.ext (by
    match a with
    | ⟨0, _⟩ => rfl
    | ⟨1, _⟩ => rfl)
  rw [val_main_v18_apply, val_main_v17_apply, val_main_v16_apply, val_main_v15_apply, e15, val_main_v14_apply,
    val_main_v13_apply, val_main_cst_3_apply, midTop_apply, score_apply, neg_inf]
  show Ideal.exp (sc x0 x1 b i j - max ⊥ (Finset.univ.sup fun i' : Fin 2048 => sc x0 x1 b i' j)) = _
  rw [max_bot_left]

/-- The weight at (b, i, j) is the softmax over i of the scores against row j. -/
theorem midWeight_apply (b : Fin 8) (i j : Fin 2048) :
    val_main_v22 (F := Ideal) x0 x1 (ix3 b i j) = softmax (fun i' : Fin 2048 => sc x0 x1 b i' j) i := by
  have e20 : idx_main_v20 (idx_main_v21 (ix3 b i j)) = ix2 b j := funext fun a => Fin.ext (by
    match a with
    | ⟨0, _⟩ => rfl
    | ⟨1, _⟩ => rfl)
  have e19 : ∀ k : Fin 2048, idx_main_v19 (ix2 b j) k = ix3 b k j := fun k => funext fun a => Fin.ext (by
    match a with
    | ⟨0, _⟩ => rfl
    | ⟨1, _⟩ => rfl
    | ⟨2, _⟩ => rfl)
  rw [val_main_v22_apply, val_main_v21_apply, val_main_v20_apply, e20, val_main_v19_apply, val_main_cst_4_apply,
    midExp_apply]
  simp only [e19, midExp_apply]
  show Ideal.div _ (Ideal.ofBits .f32 0x00000000#32 + _) = _
  rw [Ideal.ofBits_zero_f32, zero_add]
  rfl

/-- The reference's second result is the second result of the specification. -/
theorem second_eq : val_main_v24 (F := Ideal) x0 x1 = second x0 x1 := by
  funext p
  obtain ⟨b, j, c, rfl⟩ : ∃ (b : Fin 8) (j : Fin 2048) (c : Fin 128), p = ix3 b j c := ⟨p 0, p 1, p 2, eq_ix3 p⟩
  rw [val_main_v24_apply]
  show _ = ∑ i : Fin 2048, softmax (fun i' : Fin 2048 => sc x0 x1 b i' j) i * x0 (ix3 b i c)
  refine Finset.sum_congr rfl fun k _ => ?_
  have el : lidx_main_v24 (ix3 b j c) k = ix3 b k j := funext fun a => Fin.ext (by
    match a with
    | ⟨0, _⟩ => rfl
    | ⟨1, _⟩ => rfl
    | ⟨2, _⟩ => rfl)
  have er : ridx_main_v24 (ix3 b j c) k = ix3 b k c := funext fun a => Fin.ext (by
    match a with
    | ⟨0, _⟩ => rfl
    | ⟨1, _⟩ => rfl
    | ⟨2, _⟩ => rfl)
  rw [el, er, midWeight_apply]

end Cert.ReferenceIdeal.RefValue

end
-- ==== Proof.LibColumnLayouts.lean ====
import Idealize.ShloMosaic.Lib.Pipeline.Value
import Idealize.ShloMosaic.Lib.ValueIdx

/-
  Layout changes around a row-wise reduction, read at an index (for any element type and any extents):

  * slab_as_rows   — a [1, n, 1, w] slab read as an [n, w] matrix: entry (r, d) is the slab's (0, r, 0, d);
  * rows_as_slab   — an [n, w] matrix read as a [1, n, 1, w] slab;
  * vec_as_column  — a length-n vector read as an [n, 1] column (what keeping the reduced axis does to a row-wise
                     reduction's result);
  * column_spread  — an [n, 1] column spread over b columns: entry (r, t) is the column's (r, 0).
-/

namespace Cert.LibColumnLayouts

open Idealize.ShloMosaic Idealize.ShloMosaic.ValueIdx

variable {α : Type}

/-- A [1, n, 1, w] slab read as [n, w]: entry (r, d) is the slab's (0, r, 0, d). -/
theorem slab_as_rows {n w : ℕ} (x : (⟨4, ![1, n, 1, w]⟩ : Shape).Idx → α)
    (h : (⟨4, ![1, n, 1, w]⟩ : Shape).ShapeCasts ⟨2, ![n, w]⟩) (r : Fin n) (d : Fin w) :
    shapeCast ⟨2, ![n, w]⟩ x h (ix2 r d) = x (ix4 (0 : Fin 1) r (0 : Fin 1) d) :=
  shapeCast_apply x h _ _ (by
    rw [Shape.rowMajor_val_four, Shape.rowMajor_val_two]
    show ((0 * n + r.val) * 1 + 0) * w + d.val = r.val * w + d.val
    rw [Nat.zero_mul, Nat.zero_add, Nat.mul_one, Nat.add_zero])

/-- [n, w] rows read as a [1, n, 1, w] slab: entry (u, r, v, d) is the matrix's (r, d). -/
theorem rows_as_slab {n w : ℕ} (x : (⟨2, ![n, w]⟩ : Shape).Idx → α)
    (h : (⟨2, ![n, w]⟩ : Shape).ShapeCasts ⟨4, ![1, n, 1, w]⟩) (u : Fin 1) (r : Fin n) (v : Fin 1) (d : Fin w) :
    shapeCast ⟨4, ![1, n, 1, w]⟩ x h (ix4 u r v d) = x (ix2 r d) :=
  shapeCast_apply x h _ _ (by
    rw [Shape.rowMajor_val_four, Shape.rowMajor_val_two]
    show r.val * w + d.val = ((u.val * n + r.val) * 1 + v.val) * w + d.val
    have hu : u.val = 0 := by omega
    have hv : v.val = 0 := by omega
    rw [hu, hv, Nat.zero_mul, Nat.zero_add, Nat.mul_one, Nat.add_zero])

/-- A length-n vector read as an [n, 1] column: entry (r, u) is the vector's r. -/
theorem vec_as_column {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_two, Shape.rowMajor_val_one]
    show r.val = r.val * 1 + u.val
    have hu : u.val = 0 := by omega
    rw [hu, Nat.mul_one, Nat.add_zero])

/-- An [n, 1] column spread over b columns (n ≠ 1): entry (r, t) is the column's (r, 0). -/
theorem column_spread {n b : ℕ} (hb : b ≠ 1) (x : (⟨2, ![n, 1]⟩ : Shape).Idx → α) (h : (⟨2, ![n, 1]⟩ : Shape).Broadcasts ⟨2, ![n, b]⟩)
    (hn : n ≠ 1) (r : Fin n) (t : Fin b) : broadcastTo ⟨2, ![n, b]⟩ x h (ix2 r t) = x (ix2 r (0 : Fin 1)) := by
  refine broadcastTo_apply x h (ix2 r t) (ix2 r (0 : Fin 1)) fun a => ?_
  match a with
  | ⟨0, _⟩ =>
    show r.val = if n = 1 then 0 else r.val
    rw [if_neg hn]
  | ⟨1, _⟩ => rfl

end Cert.LibColumnLayouts
-- ==== Proof.LibMatmulTransposedLhs.lean ====
/-
  The matrix product that contracts the FIRST axis of both operands, generic in the extents.

  A [K, M] array against a [K, N] array, contracted over their common first axis into a zero accumulator, at the ideal
  values: entry (e, o) of the [M, N] result is the sum over r of x (r, e) * y (r, o) — the product of the transpose of
  the left operand with the right one. Stated for any dimension numbers with contracting axes [0] and [0], free axes
  [1] and [1] and no batch axes.
-/
import Idealize.ShloMosaic.PureOps.Ideal.Laws
import Idealize.ShloMosaic.Lib.Pipeline.Value
import Idealize.ShloMosaic.Lib.ValueIdx

noncomputable section

open scoped BigOperators

namespace Cert.LibMatmulTransposedLhs

open Idealize.ShloMosaic Idealize.ShloMosaic.ValueIdx

variable {K M N : ℕ}

/-- The dimension numbers with the listed axes, over any evidence of well-formedness. -/
abbrev dims (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wf : DotDims.WF ⟨2, ![K, M]⟩ ⟨2, ![K, N]⟩ ⟨2, ![M, N]⟩ [0] [0] [1] [1] [] [])

/-- The left operand's second coordinate is the output's row coordinate, -/
theorem lhs_free (j : (⟨2, ![M, N]⟩ : Shape).Idx) (q : (dims wf).contr.Idx) :
    ((dims wf).lhsIdx j q 1).val = (j 0).val := by
  unfold DotDims.lhsIdx
  rw [dif_neg (show ¬(1 : Fin 2) ∈ (dims wf).lhsBatch from List.not_mem_nil),
    dif_pos (show (1 : Fin 2) ∈ (dims wf).lhsNonContracting from List.mem_singleton.mpr rfl)]
  rfl

/-- and the right operand's second coordinate is the output's column coordinate. -/
theorem rhs_free (j : (⟨2, ![M, N]⟩ : Shape).Idx) (q : (dims wf).contr.Idx) :
    ((dims wf).rhsIdx j q 1).val = (j 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- Entry (e, o) of the product into a zero accumulator: column e of the left operand against column o of the right
    one. -/
theorem dims_matmul_zero_apply {φ₁ φ₂ : FTy} (prec : Option ContractPrecision)
    (x : FVec Ideal ⟨2, ![K, M]⟩ φ₁) (y : FVec Ideal ⟨2, ![K, N]⟩ φ₂) (e : Fin M) (o : Fin N) :
    FloatOps.matmul (dims wf) prec x y (constant ⟨2, ![M, N]⟩ .f32 0x00000000#32) (ix2 e o)
      = ∑ r : Fin K, x (ix2 r e) * y (ix2 r o) := by
  rw [Ideal.matmul_constant_zero_apply,
    ← Equiv.sum_comp (contrEquiv1 (dims wf) K rfl rfl).symm]
  refine Finset.sum_congr rfl fun k _ => ?_
  have hk := contrEquiv1_symm_val (dims wf) K rfl rfl k
  have el : (dims wf).lhsIdx (ix2 e o)
      ((contrEquiv1 (dims wf) K rfl rfl).symm k) = ix2 k e := funext fun a => Fin.ext (by
    match a with
    | ⟨0, _⟩ => exact ((dims wf).lhsIdx_val_of_single rfl _ _).trans hk
    | ⟨1, _⟩ => exact lhs_free wf _ _)
  have er : (dims wf).rhsIdx (ix2 e o)
      ((contrEquiv1 (dims wf) K rfl rfl).symm k) = ix2 k o := funext fun a => Fin.ext (by
    match a with
    | ⟨0, _⟩ => exact ((dims wf).rhsIdx_val_of_single rfl _ _).trans hk
    | ⟨1, _⟩ => exact rhs_free wf _ _)
  rw [el, er]

/-- The same for any dimension numbers whose six lists are those. -/
theorem matmul_zero_apply {φ₁ φ₂ : FTy} (D : DotDims ⟨2, ![K, M]⟩ ⟨2, ![K, N]⟩ ⟨2, ![M, N]⟩)
    (hlc : D.lhsContracting = [0]) (hrc : D.rhsContracting = [0]) (hln : D.lhsNonContracting = [1])
    (hrn : D.rhsNonContracting = [1]) (hlb : D.lhsBatch = []) (hrb : D.rhsBatch = [])
    (prec : Option ContractPrecision) (x : FVec Ideal ⟨2, ![K, M]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 r e) * y (ix2 r o) := by
  obtain ⟨lc, rc, ln, rn, lb, rb, wf⟩ := D
  simp only at hlc hrc hln hrn hlb hrb
  subst hlc hrc hln hrn hlb hrb
  exact dims_matmul_zero_apply wf prec x y e o

end Cert.LibMatmulTransposedLhs

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«162619_j3066606649523_2_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.Payloads.lean ====
/-
  What the kernel body stores, read at an index, at the ideal values.

  The body works on one batch: Y is the whole [2048, 128] block of the second argument, X the whole block of the first.
  * A row chunk's score slab: entry (r, j) is the inner product of chunk row r of X with row j of Y.
  * A row chunk's result: the slab's rows are turned into shifted softmax weights along the row, and the weights mix the
    rows of Y — row r of the result attends from chunk row r into Y.
  * A column chunk's result: a [2048, 256] slab E of scores is turned into shifted softmax weights down each column, and
    column r's weights mix the rows of X.
  A change of float format is the identity here, so the roundings to the narrow format on the way into the products
  disappear.
-/
import proofs.«162619_j3066606649523_2_alg».proof.Proof.Gen.KernelIdeal.Skeleton
import proofs.«162619_j3066606649523_2_alg».proof.Proof.Spec
import proofs.«162619_j3066606649523_2_alg».proof.Proof.LibPayOps
import proofs.«162619_j3066606649523_2_alg».proof.Proof.LibColumnLayouts
import proofs.«162619_j3066606649523_2_alg».proof.Proof.LibMatmulTransposedLhs
import proofs.«162619_j3066606649523_2_alg».proof.Proof.LibRowReduceProducts
import Idealize.ShloMosaic.Lib.ValueLayout

noncomputable section

open scoped BigOperators

namespace Cert.KernelIdeal.Pay

open Cert.KernelIdeal Cert.KernelIdeal.Gen Idealize.ShloMosaic Idealize.ShloMosaic.ValueIdx Cert.CrossAttn

/-! ## The whole block as a matrix, and the score slab of a row chunk -/

/-- The [1, 2048, 128] block as a [2048, 128] matrix: entry (j, k) is the block's (0, j, k). -/
theorem pay1_apply (v0 : Vec Ideal S1x2048x128 .f32) (j : Fin 2048) (k : Fin 128) :
    k0_pay1 (F := Ideal) v0 (ix2 j k) = v0 (ix3 (0 : Fin 1) j k) := by
  unfold k0_pay1
  exact shapeCast_1ab_ab_apply v0 shapeCasts_S1x2048x128_S2048x128 j k

/-- The score slab of a row chunk: entry (r, j) is ⟨chunk row r, row j of the whole block⟩. -/
theorem pay2_apply (v0 : Vec Ideal S1x2048x128 .f32) (v11 : Vec Ideal S1x256x128 .f32) (r : Fin 256) (j : Fin 2048) :
    k0_pay2 (F := Ideal) v0 v11 (ix2 r j) = ∑ k : Fin 128, v11 (ix3 (0 : Fin 1) r k) * v0 (ix3 (0 : Fin 1) j k) := by
  unfold k0_pay2
  refine (Cert.LibRowReduceProducts.matmulNT dot_S256x128_S2048x128_S256x2048_1_1_0_0_n_n rfl rfl rfl rfl rfl rfl none
    _ _ r j).trans ?_
  refine Finset.sum_congr rfl fun k _ => ?_
  exact congrArg₂ (· * ·) (shapeCast_1ab_ab_apply v11 shapeCasts_S1x256x128_S256x128 r k) (pay1_apply v0 j k)

/-- What is stored into the score scratch is the slab itself. -/
theorem pay3_eq (v0 : Vec Ideal S1x2048x128 .f32) (v11 : Vec Ideal S1x256x128 .f32) :
    k0_pay3 (F := Ideal) v0 v11 = k0_pay2 (F := Ideal) v0 v11 := by
  unfold k0_pay3
  exact shapeCast_self _ _

/-! ## Softmax weights along the rows of a [256, 2048] slab -/

/-- Each row's maximum, spread back over the row. -/
def rowTopV (E : FVec Ideal S256x2048 .f32) : FVec Ideal S256x2048 .f32 :=
  broadcastTo S256x2048 (shapeCast S256x1 (multiReduction .maximumf [1] S256 E 0xFF800000#32 reduces_S256x2048_S256 (.inl rfl) rfl)
    shapeCasts_S256_S256x1) broadcasts_S256x1_S256x2048

/-- The exponentials of the entries shifted by their row's maximum. -/
def rowExpV (E : FVec Ideal S256x2048 .f32) : FVec Ideal S256x2048 .f32 := exp (subf E (rowTopV E))

/-- Each row's sum of exponentials, spread back over the row. -/
def rowDenV (E : FVec Ideal S256x2048 .f32) : FVec Ideal S256x2048 .f32 :=
  broadcastTo S256x2048 (shapeCast S256x1 (multiReduction .add [1] S256 (rowExpV E) 0x00000000#32 reduces_S256x2048_S256 (.inl rfl) rfl)
    shapeCasts_S256_S256x1) broadcasts_S256x1_S256x2048

/-- The weights. -/
def rowSoftV (E : FVec Ideal S256x2048 .f32) : FVec Ideal S256x2048 .f32 := divf (rowExpV E) (rowDenV E)

/-- A length-256 vector kept as a column and spread over 2048 columns reads, at (r, j), the vector's r. -/
theorem spreadColumn_apply (x : FVec Ideal S256 .f32) (r : Fin 256) (j : Fin 2048) :
    broadcastTo S256x2048 (shapeCast S256x1 x shapeCasts_S256_S256x1) broadcasts_S256x1_S256x2048 (ix2 r j) = x (ix1 r) :=
  (Cert.LibColumnLayouts.column_spread (by decide) _ broadcasts_S256x1_S256x2048 (by decide) r j).trans
    (Cert.LibColumnLayouts.vec_as_column x shapeCasts_S256_S256x1 r (0 : Fin 1))

theorem rowTopV_apply (E : FVec Ideal S256x2048 .f32) (r : Fin 256) (j : Fin 2048) :
    rowTopV E (ix2 r j) = Finset.univ.sup fun k : Fin 2048 => E (ix2 r k) := by
  unfold rowTopV
  exact (spreadColumn_apply _ r j).trans
    (Cert.LibRowReduceProducts.rowMax_apply E reduces_S256x2048_S256 (.inl rfl) rfl r)

theorem rowExpV_apply (E : FVec Ideal S256x2048 .f32) (r : Fin 256) (j : Fin 2048) :
    rowExpV E (ix2 r j) = Ideal.exp (E (ix2 r j) - Finset.univ.sup fun k : Fin 2048 => E (ix2 r k)) := by
  unfold rowExpV
  show Ideal.exp (E (ix2 r j) - rowTopV E (ix2 r j)) = _
  rw [rowTopV_apply]

theorem rowDenV_apply (E : FVec Ideal S256x2048 .f32) (r : Fin 256) (j : Fin 2048) :
    rowDenV E (ix2 r j)
      = ∑ k' : Fin 2048, Ideal.exp (E (ix2 r k') - Finset.univ.sup fun k : Fin 2048 => E (ix2 r k)) := by
  unfold rowDenV
  refine (spreadColumn_apply _ r j).trans ?_
  refine (Cert.LibRowReduceProducts.rowSum_apply (rowExpV E) reduces_S256x2048_S256 (.inl rfl) rfl r).trans ?_
  exact Finset.sum_congr rfl fun k' _ => rowExpV_apply E r k'

/-- The weights of row r are the shifted softmax of that row's entries. -/
theorem rowSoftV_apply (E : FVec Ideal S256x2048 .f32) (r : Fin 256) (j : Fin 2048) :
    rowSoftV E (ix2 r j) = softmax (fun k : Fin 2048 => E (ix2 r k)) j := by
  unfold rowSoftV softmax
  show Ideal.div (rowExpV E (ix2 r j)) (rowDenV E (ix2 r j)) = _
  rw [rowExpV_apply, rowDenV_apply]

/-- The row chunk's stored result, through the named stages. -/
theorem pay4_eq (v0 : Vec Ideal S1x2048x128 .f32) (v11 : Vec Ideal S1x256x128 .f32) :
    k0_pay4 (F := Ideal) v0 v11
      = shapeCast S1x256x128 (matmul dot_S256x2048_S2048x128_S256x128_1_0_0_1_n_n none
          (truncf .bf16 (rowSoftV (k0_pay2 (F := Ideal) v0 v11)) bitsLt_bf16_f32) (k0_pay1 (F := Ideal) v0)
          (constant S256x128 .f32 0x00000000#32)) shapeCasts_S256x128_S1x256x128 := rfl

/-- Row r of a row chunk's result attends from chunk row r into the whole block. -/
theorem pay4_apply (v0 : Vec Ideal S1x2048x128 .f32) (v11 : Vec Ideal S1x256x128 .f32) (u : Fin 1) (r : Fin 256)
    (c : Fin 128) :
    k0_pay4 (F := Ideal) v0 v11 (ix3 u r c)
      = attendInto (fun k => v11 (ix3 (0 : Fin 1) r k)) (fun j k => v0 (ix3 (0 : Fin 1) j k)) c := by
  rw [pay4_eq]
  refine (shapeCast_ab_1ab_apply _ shapeCasts_S256x128_S1x256x128 u r c).trans ?_
  refine (Cert.LibRowReduceProducts.matmulNN dot_S256x2048_S2048x128_S256x128_1_0_0_1_n_n rfl rfl rfl rfl rfl rfl none
    _ _ r c).trans ?_
  unfold attendInto mix
  refine Finset.sum_congr rfl fun j _ => ?_
  refine congrArg₂ (· * ·) ?_ (pay1_apply v0 j c)
  refine (rowSoftV_apply (k0_pay2 (F := Ideal) v0 v11) r j).trans ?_
  exact congrArg (fun s => softmax s j) (funext fun k => pay2_apply v0 v11 r k)

/-! ## Softmax weights down the columns of a [2048, 256] slab -/

/-- Each column's maximum, spread back down the column. -/
def colTopV (E : FVec Ideal S2048x256 .f32) : FVec Ideal S2048x256 .f32 :=
  broadcastTo S2048x256 (shapeCast S1x256 (multiReduction .maximumf [0] S256 E 0xFF800000#32 reduces_S2048x256_S256 (.inl rfl) rfl)
    shapeCasts_S256_S1x256) broadcasts_S1x256_S2048x256

/-- The exponentials of the entries shifted by their column's maximum. -/
def colExpV (E : FVec Ideal S2048x256 .f32) : FVec Ideal S2048x256 .f32 := exp (subf E (colTopV E))

/-- Each column's sum of exponentials, spread back down the column. -/
def colDenV (E : FVec Ideal S2048x256 .f32) : FVec Ideal S2048x256 .f32 :=
  broadcastTo S2048x256 (shapeCast S1x256 (multiReduction .add [0] S256 (colExpV E) 0x00000000#32 reduces_S2048x256_S256 (.inl rfl) rfl)
    shapeCasts_S256_S1x256) broadcasts_S1x256_S2048x256

/-- The weights. -/
def colSoftV (E : FVec Ideal S2048x256 .f32) : FVec Ideal S2048x256 .f32 := divf (colExpV E) (colDenV E)

/-- A length-256 vector kept as a row and spread down 2048 rows reads, at (i, r), the vector's r. -/
theorem spreadRow_apply (x : FVec Ideal S256 .f32) (i : Fin 2048) (r : Fin 256) :
    broadcastTo S2048x256 (shapeCast S1x256 x shapeCasts_S256_S1x256) broadcasts_S1x256_S2048x256 (ix2 i r) = x (ix1 r) :=
  (broadcastTo_1b_ab_apply _ broadcasts_S1x256_S2048x256 i r).trans
    (shapeCast_a_1a_apply x shapeCasts_S256_S1x256 (0 : Fin 1) r)

theorem colTopV_apply (E : FVec Ideal S2048x256 .f32) (i : Fin 2048) (r : Fin 256) :
    colTopV E (ix2 i r) = Finset.univ.sup fun k : Fin 2048 => E (ix2 k r) := by
  unfold colTopV
  exact (spreadRow_apply _ i r).trans
    (Cert.LibPayOps.columnMax_apply E reduces_S2048x256_S256 (.inl rfl) rfl r)

theorem colExpV_apply (E : FVec Ideal S2048x256 .f32) (i : Fin 2048) (r : Fin 256) :
    colExpV E (ix2 i r) = Ideal.exp (E (ix2 i r) - Finset.univ.sup fun k : Fin 2048 => E (ix2 k r)) := by
  unfold colExpV
  show Ideal.exp (E (ix2 i r) - colTopV E (ix2 i r)) = _
  rw [colTopV_apply]

theorem colDenV_apply (E : FVec Ideal S2048x256 .f32) (i : Fin 2048) (r : Fin 256) :
    colDenV E (ix2 i r)
      = ∑ k' : Fin 2048, Ideal.exp (E (ix2 k' r) - Finset.univ.sup fun k : Fin 2048 => E (ix2 k r)) := by
  unfold colDenV
  refine (spreadRow_apply _ i r).trans ?_
  refine (Cert.LibRowReduceProducts.colSum_apply (colExpV E) reduces_S2048x256_S256 (.inl rfl) rfl r).trans ?_
  exact Finset.sum_congr rfl fun k' _ => colExpV_apply E k' r

/-- The weights of column r are the shifted softmax of that column's entries. -/
theorem colSoftV_apply (E : FVec Ideal S2048x256 .f32) (i : Fin 2048) (r : Fin 256) :
    colSoftV E (ix2 i r) = softmax (fun k : Fin 2048 => E (ix2 k r)) i := by
  unfold colSoftV softmax
  show Ideal.div (colExpV E (ix2 i r)) (colDenV E (ix2 i r)) = _
  rw [colExpV_apply, colDenV_apply]

/-- The column chunk's stored result, through the named stages. -/
theorem pay5_eq (v4 : Vec Ideal S1x2048x128 .f32) (E : Vec Ideal S2048x256 .f32) :
    k0_pay5 (F := Ideal) v4 E
      = shapeCast S1x256x128 (matmul dot_S2048x256_S2048x128_S256x128_0_0_1_1_n_n none
          (truncf .bf16 (colSoftV E) bitsLt_bf16_f32)
          (truncf .bf16 (shapeCast S2048x128 v4 shapeCasts_S1x2048x128_S2048x128) bitsLt_bf16_f32)
          (constant S256x128 .f32 0x00000000#32)) shapeCasts_S256x128_S1x256x128 := rfl

/-- Row r of a column chunk's result mixes the rows of the whole block by the softmax weights of column r of the slab. -/
theorem pay5_apply (v4 : Vec Ideal S1x2048x128 .f32) (E : Vec Ideal S2048x256 .f32) (u : Fin 1) (r : Fin 256)
    (c : Fin 128) :
    k0_pay5 (F := Ideal) v4 E (ix3 u r c)
      = mix (fun i : Fin 2048 => E (ix2 i r)) (fun i k => v4 (ix3 (0 : Fin 1) i k)) c := by
  rw [pay5_eq]
  refine (shapeCast_ab_1ab_apply _ shapeCasts_S256x128_S1x256x128 u r c).trans ?_
  refine (Cert.LibMatmulTransposedLhs.matmul_zero_apply dot_S2048x256_S2048x128_S256x128_0_0_1_1_n_n rfl rfl rfl rfl rfl rfl
    none _ _ r c).trans ?_
  unfold mix
  refine Finset.sum_congr rfl fun i _ => ?_
  exact congrArg₂ (· * ·) (colSoftV_apply E i r) (shapeCast_1ab_ab_apply v4 shapeCasts_S1x2048x128_S2048x128 i c)

end Cert.KernelIdeal.Pay

end
-- ==== Proof.Pieces.lean ====
/-
  What the body's two loops leave in the two result blocks, read at an index.

  The first loop walks the eight chunks of 256 rows: chunk k stores its score slab into rows [256k, 256k + 256) of the
  square score buffer and its attended rows into the same rows of the first result block.  The chunks keep apart on
  the row axis, so row ρ of the first result block is row ρ mod 256 of chunk ρ / 256's stored value, and entry (i, j)
  of the score buffer is entry (i mod 256, j) of chunk i / 256's slab: the score of row i of the first block against
  row j of the second.  The second loop walks the eight chunks of 256 columns of that buffer and stores into rows
  [256k, 256k + 256) of the second result block the rows of the first block mixed by the softmax weights down each
  column; so row ρ of the second result block is mixed by the weights of column ρ of the scores.
-/
import proofs.«162619_j3066606649523_2_alg».proof.Proof.PatchedKernelIdealFrame
import proofs.«162619_j3066606649523_2_alg».proof.Proof.Payloads
import Idealize.ShloMosaic.Lib.WritesUnit
import Idealize.ShloMosaic.Lib.Pipeline.Value

noncomputable section

open scoped BigOperators

namespace Cert.KernelIdeal.Pieces

open Cert.KernelIdeal Cert.KernelIdeal.Gen Idealize.ShloMosaic Idealize.ShloMosaic.TcCoe Idealize.SL.Sem
open Idealize.ShloMosaic.ValueIdx Cert.CrossAttn

variable {F : FTy → Type} [FloatOps F]

/-- Each loop makes eight trips. -/
theorem trips1 : k0_t1_loop.trips = 8 := by decide
theorem trips2 : k0_t2_loop.trips = 8 := by decide

/-! ## One trip's stores, and the stores of the trips so far as lists of tiles -/

section Trips

variable (𝒱 : Variants) (c : Dev nD) (bd : Option 𝒱.V) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S2048x2048 .f32) (harg5 : arg5.IsWhole)

/-- Trip k of the first loop stores the attended rows of chunk k into the first result block and the chunk's score slab
    into the score buffer, both computed from the chunk's rows as loaded. -/
theorem trip1_pieces (v0 : Vec F S1x2048x128 .f32) (X : BufTy.Contents (Elt F) arg1.view.ty) (k : Fin k0_t1_loop.trips) :
    tripL_k0_t1 (F := F) 𝒱 c bd i arg1 harg1 arg2 harg2 arg3 harg3 arg4 harg4 arg5 harg5 v0 X k
      = ([⟨Rect.unit (s := S1x2048x128) (k0_off1 k) S1x256x128.size (k0_off1_inb k), k0_pay4 v0 (arg1.view.readAt (Elt F) (Rect.unit (s := S1x2048x128) (k0_off1 k) S1x256x128.size (k0_off1_inb k)).toLoadRect X)⟩],
         [⟨Rect.unit (s := S2048x2048) (k0_off2 k) S256x2048.size (k0_off2_inb k), k0_pay3 v0 (arg1.view.readAt (Elt F) (Rect.unit (s := S1x2048x128) (k0_off1 k) S1x256x128.size (k0_off1_inb k)).toLoadRect X)⟩]) := by
  unfold tripL_k0_t1 trip_k0_t1
  rfl

/-- Trip k of the second loop stores, into the second result block, the mix computed from column chunk k of the score
    buffer as loaded. -/
theorem trip2_pieces (v4 : Vec F S1x2048x128 .f32) (X : BufTy.Contents (Elt F) arg5.view.ty) (k : Fin k0_t2_loop.trips) :
    tripL_k0_t2 (F := F) 𝒱 c bd i arg1 harg1 arg2 harg2 arg3 harg3 arg4 harg4 arg5 harg5 v4 X k
      = [⟨Rect.unit (s := S1x2048x128) (k0_off4 k) S1x256x128.size (k0_off4_inb k),
          k0_pay5 v4 (arg5.view.readAt (Elt F) (Rect.unit (s := S2048x2048) (k0_off3 k) S2048x256.size (k0_off3_inb k)).toLoadRect X)⟩] := by
  unfold tripL_k0_t2 trip_k0_t2
  rfl

/-- The first loop's stores before trip n are two lists of tiles. -/
theorem pb1 (v0 : Vec F S1x2048x128 .f32) (X : BufTy.Contents (Elt F) arg1.view.ty) (n : ℕ) (hn : n ≤ k0_t1_loop.trips) :
    pb_k0_t1 (F := F) 𝒱 c bd i arg1 harg1 arg2 harg2 arg3 harg3 arg4 harg4 arg5 harg5 v0 X n
      = (View.tilePieces (s := S1x2048x128) (e := .f32) (Val := Elt F) (NT := k0_t1_loop.trips) S1x256x128.size
            (fun k => k0_off1 k) (fun k => k0_off1_inb k) (fun k => k0_pay4 v0 (arg1.view.readAt (Elt F) (Rect.unit (s := S1x2048x128) (k0_off1 k) S1x256x128.size (k0_off1_inb k)).toLoadRect X)) n hn,
         View.tilePieces (s := S2048x2048) (e := .f32) (Val := Elt F) (NT := k0_t1_loop.trips) S256x2048.size
            (fun k => k0_off2 k) (fun k => k0_off2_inb k) (fun k => k0_pay3 v0 (arg1.view.readAt (Elt F) (Rect.unit (s := S1x2048x128) (k0_off1 k) S1x256x128.size (k0_off1_inb k)).toLoadRect X)) n hn) := by
  induction n with
  | zero => rfl
  | succ n ih =>
    refine (pb_k0_t1_succ 𝒱 c bd i arg1 harg1 arg2 harg2 arg3 harg3 arg4 harg4 arg5 harg5 v0 X ⟨n, hn⟩).trans ?_
    rw [trip1_pieces, ih (Nat.le_of_succ_le hn)]
    rfl

/-- The second loop's stores before trip n are a list of tiles. -/
theorem pb2 (v4 : Vec F S1x2048x128 .f32) (X : BufTy.Contents (Elt F) arg5.view.ty) (n : ℕ) (hn : n ≤ k0_t2_loop.trips) :
    pb_k0_t2 (F := F) 𝒱 c bd i arg1 harg1 arg2 harg2 arg3 harg3 arg4 harg4 arg5 harg5 v4 X n
      = View.tilePieces (s := S1x2048x128) (e := .f32) (Val := Elt F) (NT := k0_t2_loop.trips) S1x256x128.size
          (fun k => k0_off4 k) (fun k => k0_off4_inb k)
          (fun k => k0_pay5 v4 (arg5.view.readAt (Elt F) (Rect.unit (s := S2048x2048) (k0_off3 k) S2048x256.size (k0_off3_inb k)).toLoadRect X)) n hn := by
  induction n with
  | zero => rfl
  | succ n ih =>
    refine (pb_k0_t2_succ 𝒱 c bd i arg1 harg1 arg2 harg2 arg3 harg3 arg4 harg4 arg5 harg5 v4 X ⟨n, hn⟩).trans ?_
    rw [trip2_pieces, ih (Nat.le_of_succ_le hn)]
    rfl

end Trips

/-! ## Reading a list of row tiles at an index -/

/-- After eight row tiles of a [1, 2048, 128] block, entry (u, ρ, col) is entry (u, ρ mod 256, col) of tile ρ / 256. -/
theorem read_rowTiles {NT : ℕ} (hNT : NT = 8) (off : Fin NT → Fin 3 → ℕ) (hoff : ∀ k : Fin NT, off k = ![0, 256 * k.val, 0])
    (inb : ∀ (k : Fin NT) (a : Fin 3), off k a + (![1, 256, 128] : Fin 3 → ℕ) a ≤ (![1, 2048, 128] : Fin 3 → ℕ) a)
    {sig' : RefSig} {κ : Kind} {sp : Space} (v : View sig' κ sp ⟨3, ![1, 2048, 128]⟩ .f32) (f : v.ty.Contents (Elt F))
    (P : Fin NT → (⟨3, ![1, 256, 128]⟩ : Shape).Idx → Elt F .f32) (u : Fin 1) (ρ : Fin 2048) (col : Fin 128) :
    v.read (Elt F) (v.writes (Elt F) f (View.tilePieces (s := ⟨3, ![1, 2048, 128]⟩) ![1, 256, 128] off inb P NT le_rfl)) (ix3 u ρ col)
      = P ⟨ρ.val / 256, by have := ρ.isLt; omega⟩ (ix3 u ⟨ρ.val % 256, Nat.mod_lt _ (by decide)⟩ col) := by
  refine View.read_tilePieces v f ![1, 256, 128] off inb P NT le_rfl (ix3 u ρ col) ⟨ρ.val / 256, by have := ρ.isLt; omega⟩
    (by have := ρ.isLt; show ρ.val / 256 < NT; omega) (ix3 u ⟨ρ.val % 256, Nat.mod_lt _ (by decide)⟩ col) ?_ ⟨1, by decide⟩ ?_
  · intro a
    rw [hoff]
    match a with
    | ⟨0, _⟩ => show u.val = 0 + u.val; omega
    | ⟨1, _⟩ => show ρ.val = 256 * (ρ.val / 256) + ρ.val % 256; omega
    | ⟨2, _⟩ => show col.val = 0 + col.val; omega
  · intro k' hk'
    rw [hoff]
    have hne : k'.val ≠ ρ.val / 256 := fun h => hk' (Fin.ext h)
    show ρ.val < 256 * k'.val ∨ 256 * k'.val + 256 ≤ ρ.val
    omega

/-- After eight row tiles of a [2048, 2048] buffer, the canonical contents at (i, j) are entry (i mod 256, j) of
    tile i / 256. -/
theorem canon_rowTiles {NT : ℕ} (hNT : NT = 8) (off : Fin NT → Fin 2 → ℕ) (hoff : ∀ k : Fin NT, off k = ![256 * k.val, 0])
    (inb : ∀ (k : Fin NT) (a : Fin 2), off k a + (![256, 2048] : Fin 2 → ℕ) a ≤ (![2048, 2048] : Fin 2 → ℕ) a)
    {sig' : RefSig} {κ : Kind} {sp : Space} (v : View sig' κ sp ⟨2, ![2048, 2048]⟩ .f32)
    (P : Fin NT → (⟨2, ![256, 2048]⟩ : Shape).Idx → Elt F .f32) (i j : Fin 2048) :
    View.canon (View.tilePieces (s := ⟨2, ![2048, 2048]⟩) (Val := Elt F) (e := .f32) ![256, 2048] off inb P NT le_rfl) (ix2 i j)
      = P ⟨i.val / 256, by have := i.isLt; omega⟩ (ix2 ⟨i.val % 256, Nat.mod_lt _ (by decide)⟩ j) := by
  rw [← View.read_writes_junk_apply_eq_canon v]
  refine View.read_tilePieces v v.junk ![256, 2048] off inb P NT le_rfl (ix2 i j) ⟨i.val / 256, by have := i.isLt; omega⟩
    (by have := i.isLt; show i.val / 256 < NT; omega) (ix2 ⟨i.val % 256, Nat.mod_lt _ (by decide)⟩ j) ?_ ⟨0, by decide⟩ ?_
  · intro a
    rw [hoff]
    match a with
    | ⟨0, _⟩ => show i.val = 256 * (i.val / 256) + i.val % 256; omega
    | ⟨1, _⟩ => show j.val = 0 + j.val; omega
  · intro k' hk'
    rw [hoff]
    have hne : k'.val ≠ i.val / 256 := fun h => hk' (Fin.ext h)
    show i.val < 256 * k'.val ∨ 256 * k'.val + 256 ≤ i.val
    omega

end Cert.KernelIdeal.Pieces

end
-- ==== Proof.Blocks.lean ====
/-
  The two result blocks the body leaves at a grid point, read at an index, as functions of the point's two input blocks.

  The body's pieces are the two loops' tiles (eight each); the first loop's score tiles fill the score buffer, whose
  canonical contents the second loop reads column chunk by column chunk.  Row ρ of the first result block attends from
  row ρ of the first input block into the second input block; row ρ of the second result block mixes the rows of the
  first input block by their scores against row ρ of the second.
-/
import proofs.«162619_j3066606649523_2_alg».proof.Proof.Pieces

noncomputable section

open scoped BigOperators

namespace Cert.KernelIdeal.Blocks

open Cert.KernelIdeal Cert.KernelIdeal.Gen Cert.KernelIdeal.Pieces Idealize.ShloMosaic Idealize.ShloMosaic.TcCoe Idealize.SL.Sem
open Idealize.ShloMosaic.ValueIdx Cert.CrossAttn

/-- A whole-block load from a whole buffer holding x reads x. -/
theorem whole_load {F : FTy → Type} [FloatOps F] (m : Memref sig .tc .vmem S1x2048x128 .f32) (h : m.IsWhole)
    (x : Vec F S1x2048x128 .f32) :
    (m.view.readAt (Elt F) (Rect.unit (s := S1x2048x128) ![0, 0, 0] S1x2048x128.size inb_S1x2048x128_S1x2048x128_0_0_0).toLoadRect (h.unread x)) = x := by
  have hz : (![0, 0, 0] : Fin S1x2048x128.rank → ℕ) = fun _ => 0 := funext fun a => by
    match a with
    | ⟨0, _⟩ => rfl
    | ⟨1, _⟩ => rfl
    | ⟨2, _⟩ => rfl
  rw [View.readAt_eq_ld, h.read_unread, View.ld_unit_zero (S := S1x2048x128) hz]

section Run

variable {F : FTy → Type} [FloatOps F] (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S2048x2048 .f32) (harg5 : arg5.IsWhole) (x0 x1 : Vec F S1x2048x128 .f32)

/-- The first result block's pieces are the first loop's. -/
theorem run_fst :
    (GenP.kernelRun0_A (F := F) c i arg1 harg1 arg2 harg2 arg3 harg3 arg4 harg4 arg5 harg5 x0 x1).1
      = (pb_k0_t1 (F := F) Variants.none c none i arg1 harg1 arg2 harg2 arg3 harg3 arg4 harg4 arg5 harg5 (arg2.view.readAt (Elt F) (Rect.unit (s := S1x2048x128) ![0, 0, 0] S1x2048x128.size inb_S1x2048x128_S1x2048x128_0_0_0).toLoadRect (harg2.unread x1)) (harg1.unread x0)
          (Scf.trips k0_t1_loop.lb k0_t1_loop.ub k0_t1_loop.st)).1 := rfl

/-- The second result block's pieces are the second loop's, run over the canonical contents the first loop's score tiles
    leave in the score buffer. -/
theorem run_snd :
    (GenP.kernelRun0_A (F := F) c i arg1 harg1 arg2 harg2 arg3 harg3 arg4 harg4 arg5 harg5 x0 x1).2.1
      = pb_k0_t2 (F := F) Variants.none c none i arg1 harg1 arg2 harg2 arg3 harg3 arg4 harg4 arg5 harg5 (arg1.view.readAt (Elt F) (Rect.unit (s := S1x2048x128) ![0, 0, 0] S1x2048x128.size inb_S1x2048x128_S1x2048x128_0_0_0).toLoadRect (harg1.unread x0))
          (harg5.unread (View.canon (pb_k0_t1 (F := F) Variants.none c none i arg1 harg1 arg2 harg2 arg3 harg3 arg4 harg4 arg5 harg5 (arg2.view.readAt (Elt F) (Rect.unit (s := S1x2048x128) ![0, 0, 0] S1x2048x128.size inb_S1x2048x128_S1x2048x128_0_0_0).toLoadRect (harg2.unread x1)) (harg1.unread x0)
            (Scf.trips k0_t1_loop.lb k0_t1_loop.ub k0_t1_loop.st)).2))
          (Scf.trips k0_t2_loop.lb k0_t2_loop.ub k0_t2_loop.st) := rfl

end Run

section Values

variable (c : Dev nD) (i : grid0.Coords) (arg1 : Memref sig .tc .vmem S1x2048x128 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S2048x2048 .f32) (harg5 : arg5.IsWhole) (x0 x1 : Vec Ideal S1x2048x128 .f32)

/-- Chunk k's rows as loaded from a buffer holding x0: entry (0, r, kk) is x0's (0, 256k + r, kk). -/
theorem chunk_load (k : Fin k0_t1_loop.trips) (r : Fin 256) (kk : Fin 128) (ρ : Fin 2048) (hρ : ρ.val = 256 * k.val + r.val) :
    arg1.view.readAt (Elt Ideal) (Rect.unit (s := S1x2048x128) (k0_off1 k) S1x256x128.size (k0_off1_inb k)).toLoadRect (harg1.unread x0)
        (ix3 (0 : Fin 1) r kk)
      = x0 (ix3 (0 : Fin 1) ρ kk) := by
  rw [View.readAt_eq_ld, harg1.read_unread]
  have e1 : (Rect.unit (s := S1x2048x128) (k0_off1 k) S1x256x128.size (k0_off1_inb k)).off = ![0, 256 * k.val, 0] := k0_off1_eq k
  have e2 : (Rect.unit (s := S1x2048x128) (k0_off1 k) S1x256x128.size (k0_off1_inb k)).stride = fun _ => 1 := rfl
  refine congrArg x0 (funext fun a => Fin.ext ?_)
  rw [LoadRect.idx_apply, e1, e2]
  match a with
  | ⟨0, _⟩ => rfl
  | ⟨1, _⟩ => show 256 * k.val + 1 * r.val = ρ.val; omega
  | ⟨2, _⟩ => show 0 + 1 * kk.val = kk.val; omega

/-- Column chunk k of a score buffer holding Z, as loaded: entry (i, r) is Z's (i, 256k + r). -/
theorem column_load (Z : FVec Ideal S2048x2048 .f32) (k : Fin k0_t2_loop.trips) (i' : Fin 2048) (r : Fin 256) (ρ : Fin 2048)
    (hρ : ρ.val = 256 * k.val + r.val) :
    arg5.view.readAt (Elt Ideal) (Rect.unit (s := S2048x2048) (k0_off3 k) S2048x256.size (k0_off3_inb k)).toLoadRect (harg5.unread Z)
        (ix2 i' r)
      = Z (ix2 i' ρ) := by
  rw [View.readAt_eq_ld, harg5.read_unread]
  have e1 : (Rect.unit (s := S2048x2048) (k0_off3 k) S2048x256.size (k0_off3_inb k)).off = ![0, 256 * k.val] := k0_off3_eq k
  have e2 : (Rect.unit (s := S2048x2048) (k0_off3 k) S2048x256.size (k0_off3_inb k)).stride = fun _ => 1 := rfl
  refine congrArg Z (funext fun a => Fin.ext ?_)
  rw [LoadRect.idx_apply, e1, e2]
  match a with
  | ⟨0, _⟩ => show 0 + 1 * i'.val = i'.val; omega
  | ⟨1, _⟩ => show 256 * k.val + 1 * r.val = ρ.val; omega

/-- Row ρ of the first result block attends from row ρ of the first input block into the second input block. -/
theorem out2_apply (u : Fin 1) (ρ : Fin 2048) (col : Fin 128) :
    GenP.out0_A_2 (F := Ideal) c i arg1 harg1 arg2 harg2 arg3 harg3 arg4 harg4 arg5 harg5 x0 x1 (ix3 u ρ col)
      = attendInto (fun kk => x0 (ix3 (0 : Fin 1) ρ kk)) (fun j kk => x1 (ix3 (0 : Fin 1) j kk)) col := by
  unfold GenP.out0_A_2
  rw [run_fst, pb1 Variants.none c none i arg1 harg1 arg2 harg2 arg3 harg3 arg4 harg4 arg5 harg5 _ _ _ le_rfl]
  dsimp only
  refine (read_rowTiles (NT := k0_t1_loop.trips) trips1 (fun k => k0_off1 k) k0_off1_eq (fun k => k0_off1_inb k)
    VO0_2 VO0_2.junk _ u ρ col).trans ?_
  refine (Pay.pay4_apply _ _ u _ col).trans ?_
  refine congrArg₂ (fun a b => attendInto a b col) (funext fun kk => ?_) (funext fun j => funext fun kk => ?_)
  · exact chunk_load arg1 harg1 x0 _ _ kk ρ (by show ρ.val = 256 * (ρ.val / 256) + ρ.val % 256; omega)
  · rw [whole_load]

/-- What the first loop leaves in the score buffer: entry (i, j) is the score of row i of the first input block against
    row j of the second. -/
theorem scores_apply (i' j' : Fin 2048) :
    View.canon (pb_k0_t1 (F := Ideal) Variants.none c none i arg1 harg1 arg2 harg2 arg3 harg3 arg4 harg4 arg5 harg5 (arg2.view.readAt (Elt Ideal) (Rect.unit (s := S1x2048x128) ![0, 0, 0] S1x2048x128.size inb_S1x2048x128_S1x2048x128_0_0_0).toLoadRect (harg2.unread x1)) (harg1.unread x0)
        (Scf.trips k0_t1_loop.lb k0_t1_loop.ub k0_t1_loop.st)).2 (ix2 i' j')
      = ∑ kk : Fin 128, x0 (ix3 (0 : Fin 1) i' kk) * x1 (ix3 (0 : Fin 1) j' kk) := by
  rw [pb1 Variants.none c none i arg1 harg1 arg2 harg2 arg3 harg3 arg4 harg4 arg5 harg5 _ _ _ le_rfl]
  dsimp only
  refine (canon_rowTiles (F := Ideal) (NT := k0_t1_loop.trips) trips1 (fun k => k0_off2 k) k0_off2_eq (fun k => k0_off2_inb k)
    arg5.view (fun k => k0_pay3 (F := Ideal) (arg2.view.readAt (Elt Ideal) (Rect.unit (s := S1x2048x128) ![0, 0, 0] S1x2048x128.size inb_S1x2048x128_S1x2048x128_0_0_0).toLoadRect (harg2.unread x1)) (arg1.view.readAt (Elt Ideal) (Rect.unit (s := S1x2048x128) (k0_off1 k) S1x256x128.size (k0_off1_inb k)).toLoadRect (harg1.unread x0))) i' j').trans ?_
  refine (congrFun (Pay.pay3_eq _ _) _).trans ?_
  refine (Pay.pay2_apply _ _ _ j').trans ?_
  refine Finset.sum_congr rfl fun kk _ => ?_
  refine congrArg₂ (· * ·) ?_ ?_
  · exact chunk_load arg1 harg1 x0 _ _ kk i' (by show i'.val = 256 * (i'.val / 256) + i'.val % 256; omega)
  · rw [whole_load]

/-- Row ρ of the second result block mixes the rows of the first input block by their scores against row ρ of the second. -/
theorem out3_apply (u : Fin 1) (ρ : Fin 2048) (col : Fin 128) :
    GenP.out0_A_3 (F := Ideal) c i arg1 harg1 arg2 harg2 arg3 harg3 arg4 harg4 arg5 harg5 x0 x1 (ix3 u ρ col)
      = attendFrom (fun i' kk => x0 (ix3 (0 : Fin 1) i' kk)) (fun kk => x1 (ix3 (0 : Fin 1) ρ kk)) col := by
  unfold GenP.out0_A_3
  rw [run_snd, pb2 Variants.none c none i arg1 harg1 arg2 harg2 arg3 harg3 arg4 harg4 arg5 harg5 _ _ _ le_rfl]
  refine (read_rowTiles (NT := k0_t2_loop.trips) trips2 (fun k => k0_off4 k) k0_off4_eq (fun k => k0_off4_inb k)
    VO0_3 VO0_3.junk _ u ρ col).trans ?_
  refine (Pay.pay5_apply _ _ u _ col).trans ?_
  unfold attendFrom
  refine congrArg₂ (fun s M => mix s M col) (funext fun i' => ?_) (funext fun i' => funext fun kk => ?_)
  · refine (column_load arg5 harg5 _ _ i' _ ρ (by show ρ.val = 256 * (ρ.val / 256) + ρ.val % 256; omega)).trans ?_
    exact scores_apply c i arg1 harg1 arg2 harg2 arg3 harg3 arg4 harg4 arg5 harg5 x0 x1 i' ρ
  · rw [whole_load]

end Values

end Cert.KernelIdeal.Blocks

end
-- ==== Proof.Final.lean ====
/-
  From blocks to arrays: what each of the two result arrays holds after the run.

  The grid has eight points, one per batch: at point t every window's block is batch t of its array (all rows, all
  columns).  So point t's input blocks are batch t of the two arguments, what it writes back to a result array is
  batch t of the specification's result — the block lemmas read at the block's indices — and the eight blocks cover the
  array.  The run is then re-posted with each result array at the specification's function of the arguments.
-/
import proofs.«162619_j3066606649523_2_alg».proof.Proof.Blocks

noncomputable section

open scoped BigOperators

namespace Cert.KernelIdeal.Final

open Cert.KernelIdeal Cert.KernelIdeal.Gen Cert.KernelIdeal.Blocks Idealize.ShloMosaic Idealize.ShloMosaic.TcCoe Idealize.SL.Sem
open Idealize.ShloMosaic.ValueIdx Cert.CrossAttn
open Idealize.ShloMosaic.Pipeline (Dat)

variable (m : (ℓ : Loc nD τ sig) → Buf (Elt Ideal) ℓ) (ρ : Dev nD → PrngReg)

/-- The printed index maps, decided over the grid: at point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-! ## The input blocks -/

/-- Input window 0's block at point t is batch t of its array. -/
theorem iblk0_apply (c : Dev nD) (t : Fin cfg0.N) (b : Fin 8) (hb : b.val = t.val) (r : Fin 2048) (kk : Fin 128) :
    iblk m c 0 t (ix3 (0 : Fin 1) r kk) = V m c main_arg0 (ix3 b r kk) := by
  obtain ⟨e00, e01, e02, e10, e11, e12, -⟩ := idx_facts t
  show V m c main_arg0 (((cfg0.win 0).blk t).view.emb (ix3 (0 : Fin 1) r kk)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 2048 + 1 * r.val = r.val; omega
  | ⟨2, _⟩ => show win0_0.index t (2 : Fin 3) * 128 + 1 * kk.val = kk.val; omega

/-- Input window 1's block at point t is batch t of its array. -/
theorem iblk1_apply (c : Dev nD) (t : Fin cfg0.N) (b : Fin 8) (hb : b.val = t.val) (r : Fin 2048) (kk : Fin 128) :
    iblk m c 1 t (ix3 (0 : Fin 1) r kk) = V m c main_arg1 (ix3 b r kk) := by
  obtain ⟨-, -, -, e10, e11, e12, -⟩ := idx_facts t
  show V m c main_arg1 (((cfg0.win 1).blk t).view.emb (ix3 (0 : Fin 1) r kk)) = _
  refine congrArg (V m c main_arg1) (funext fun a => Fin.ext ?_)
  match a with
  | ⟨0, _⟩ => show win0_1.index t (0 : Fin 3) * 1 + 1 * 0 = b.val; omega
  | ⟨1, _⟩ => show win0_1.index t (1 : Fin 3) * 2048 + 1 * r.val = r.val; omega
  | ⟨2, _⟩ => show win0_1.index t (2 : Fin 3) * 128 + 1 * kk.val = kk.val; omega

/-! ## The first result array -/

/-- An index of the array is in point t's block iff each coordinate is in the block's range on its axis. -/
theorem mem_blk2 (t : Fin cfg0.N) (i : S8x2048x128.Idx) :
    i ∈ ((cfg0.win 2).blk t).view.set ↔ ∀ a : Fin 3, win0_2.index t a * S1x2048x128.size a ≤ (i a).val
      ∧ (i a).val < win0_2.index t a * S1x2048x128.size a + S1x2048x128.size a := by
  show i ∈ ((View.whole main_v0_0).slice (win0_2.rect t)).set ↔ _
  rw [View.set_slice_whole, Rect.mem_set_unit]
  exact Iff.rfl

/-- What point t writes back is block t of the first result of the specification, of the argument arrays as the region
    finds them. -/
theorem flushed2_eq (c : Dev nD) (t : Fin cfg0.N) :
    (GenP.dats m 0 c).flushed 2 t
      = ((cfg0.win 2).blk t).view.read (Elt Ideal) (first (V m c main_arg0) (V m c main_arg1)) := by
  have hb : t.val < 8 := Nat.lt_of_lt_of_eq t.isLt N_0
  obtain ⟨-, -, -, -, -, -, e20, e21, e22, e30, e31, e32⟩ := idx_facts t
  show (cfg0.win 2).cut (grid0.coords t) ((GenP.dats m 0 c).after 2 t) = _
  rw [GenP.after0_2]
  unfold GenP.outsAt0
  funext j
  obtain ⟨u, r, col, rfl⟩ : ∃ (u : Fin 1) (r : Fin 2048) (col : Fin 128), j = ix3 u r col := ⟨j 0, j 1, j 2, eq_ix3 j⟩
  have hp : ((cfg0.win 2).blk t).view.emb (ix3 u r col) = ix3 (⟨t.val, hb⟩ : Fin 8) r col := funext fun a => Fin.ext (by
    match a with
    | ⟨0, _⟩ => show win0_2.index t (0 : Fin 3) * 1 + 1 * u.val = t.val; have := u.isLt; omega
    | ⟨1, _⟩ => show win0_2.index t (1 : Fin 3) * 2048 + 1 * r.val = r.val; omega
    | ⟨2, _⟩ => show win0_2.index t (2 : Fin 3) * 128 + 1 * col.val = col.val; omega)
  show GenP.out0_A_2 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (ix3 u r col)
      = first (V m c main_arg0) (V m c main_arg1) (((cfg0.win 2).blk t).view.emb (ix3 u r col))
  rw [hp]
  refine (out2_apply c (grid0.coords t) (ms0_0 t) (hs0_0 t) (ms0_1 t) (hs0_1 t) (ms0_2 t) (hs0_2 t) (ms0_3 t) (hs0_3 t) scM0_0 (Memref.isWhole_whole _) (iblk m c 0 t) (iblk m c 1 t) u r col).trans ?_
  exact congrArg₂ (fun a b' => attendInto a b' col) (funext fun kk => iblk0_apply m c t ⟨t.val, hb⟩ rfl r kk)
    (funext fun j' => funext fun kk => iblk1_apply m c t ⟨t.val, hb⟩ rfl j' kk)

/-- Every index of the array is in the block of the point of its batch. -/
theorem cover2 (i : S8x2048x128.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 128 := (i 2).isLt
  obtain ⟨t, ht⟩ : ∃ t : Fin cfg0.N, t.val = (i 0).val := ⟨⟨(i 0).val, Nat.lt_of_lt_of_eq hi0 N_0.symm⟩, rfl⟩
  obtain ⟨-, -, -, -, -, -, e20, e21, e22, e30, e31, e32⟩ := idx_facts t
  refine ⟨t, flush0_2 t, ?_⟩
  rw [mem_blk2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2048 ≤ (i 1).val ∧ (i 1).val < win0_2.index t (1 : Fin 3) * 2048 + 2048
    omega
  | ⟨2, _⟩ =>
    show win0_2.index t (2 : Fin 3) * 128 ≤ (i 2).val ∧ (i 2).val < win0_2.index t (2 : Fin 3) * 128 + 128
    omega

/-- So the array ends holding the first result of the specification of the argument arrays. -/
theorem final2 (c : Dev nD) :
    (GenP.dats m 0 c).arrAt 2 cfg0.N
      = first (m ((c : Thread nD τ).loc main_arg0)) (m ((c : Thread nD τ).loc main_arg1)) :=
  (GenP.dats m 0 c).arrAt_eq_of_cover 2 (first (V m c main_arg0) (V m c main_arg1)) (fun t _ => flushed2_eq m c t)
    (fun i => cover2 i)

/-! ## The second result array -/

/-- An index of the array is in point t's block iff each coordinate is in the block's range on its axis. -/
theorem mem_blk3 (t : Fin cfg0.N) (i : S8x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v0_1).slice (win0_3.rect t)).set ↔ _
  rw [View.set_slice_whole, Rect.mem_set_unit]
  exact Iff.rfl

/-- What point t writes back is block t of the second result of the specification, of the argument arrays as the region
    finds them. -/
theorem flushed3_eq (c : Dev nD) (t : Fin cfg0.N) :
    (GenP.dats m 0 c).flushed 3 t
      = ((cfg0.win 3).blk t).view.read (Elt Ideal) (second (V m c main_arg0) (V m c main_arg1)) := by
  have hb : t.val < 8 := Nat.lt_of_lt_of_eq t.isLt N_0
  obtain ⟨-, -, -, -, -, -, e20, e21, e22, e30, e31, e32⟩ := idx_facts t
  show (cfg0.win 3).cut (grid0.coords t) ((GenP.dats m 0 c).after 3 t) = _
  rw [GenP.after0_3]
  unfold GenP.outsAt0
  funext j
  obtain ⟨u, r, col, rfl⟩ : ∃ (u : Fin 1) (r : Fin 2048) (col : Fin 128), j = ix3 u r col := ⟨j 0, j 1, j 2, eq_ix3 j⟩
  have hp : ((cfg0.win 3).blk t).view.emb (ix3 u r col) = ix3 (⟨t.val, hb⟩ : Fin 8) r col := funext fun a => Fin.ext (by
    match a with
    | ⟨0, _⟩ => show win0_3.index t (0 : Fin 3) * 1 + 1 * u.val = t.val; have := u.isLt; omega
    | ⟨1, _⟩ => show win0_3.index t (1 : Fin 3) * 2048 + 1 * r.val = r.val; omega
    | ⟨2, _⟩ => show win0_3.index t (2 : Fin 3) * 128 + 1 * col.val = col.val; omega)
  show GenP.out0_A_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (ix3 u r col)
      = second (V m c main_arg0) (V m c main_arg1) (((cfg0.win 3).blk t).view.emb (ix3 u r col))
  rw [hp]
  refine (out3_apply c (grid0.coords t) (ms0_0 t) (hs0_0 t) (ms0_1 t) (hs0_1 t) (ms0_2 t) (hs0_2 t) (ms0_3 t) (hs0_3 t) scM0_0 (Memref.isWhole_whole _) (iblk m c 0 t) (iblk m c 1 t) u r col).trans ?_
  exact congrArg₂ (fun a b' => attendFrom a b' col) (funext fun i' => funext fun kk => iblk0_apply m c t ⟨t.val, hb⟩ rfl i' kk)
    (funext fun kk => iblk1_apply m c t ⟨t.val, hb⟩ rfl r kk)

/-- Every index of the array is in the block of the point of its batch. -/
theorem cover3 (i : S8x2048x128.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  obtain ⟨t, ht⟩ : ∃ t : Fin cfg0.N, t.val = (i 0).val := ⟨⟨(i 0).val, Nat.lt_of_lt_of_eq hi0 N_0.symm⟩, rfl⟩
  obtain ⟨-, -, -, -, -, -, e20, e21, e22, e30, e31, e32⟩ := idx_facts t
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 2048 ≤ (i 1).val ∧ (i 1).val < win0_3.index t (1 : Fin 3) * 2048 + 2048
    omega
  | ⟨2, _⟩ =>
    show win0_3.index t (2 : Fin 3) * 128 ≤ (i 2).val ∧ (i 2).val < win0_3.index t (2 : Fin 3) * 128 + 128
    omega

/-- So the array ends holding the second result of the specification of the argument arrays. -/
theorem final3 (c : Dev nD) :
    (GenP.dats m 0 c).arrAt 3 cfg0.N
      = second (m ((c : Thread nD τ).loc main_arg0)) (m ((c : Thread nD τ).loc main_arg1)) :=
  (GenP.dats m 0 c).arrAt_eq_of_cover 3 (second (V m c main_arg0) (V m c main_arg1)) (fun t _ => flushed3_eq m c t)
    (fun i => cover3 i)

/-! ## The run, read -/

/-- The frame run re-posted: each result array at the specification's function of the arguments, the arguments
    unchanged. -/
theorem run : θ_run defs (onTc (τ := τ) (main (F := Ideal))) ⟨m, fun _ => 0, ρ⟩ fun r => ∀ c : Dev nD,
      r.2.mem ((c : Thread nD τ).loc main_v0_0)
          = first (m ((c : Thread nD τ).loc main_arg0)) (m ((c : Thread nD τ).loc main_arg1))
      ∧ r.2.mem ((c : Thread nD τ).loc main_v0_1)
          = second (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final2 m c), ((h c).1 3).trans (final3 m c),
      ((h c).1 0).trans (((GenP.dats m 0 c).arrAt_in 0 rfl _).trans ((GenP.A_eq m c 0).trans (V_main_arg0 m c))),
      ((h c).1 1).trans (((GenP.dats m 0 c).arrAt_in 1 rfl _).trans ((GenP.A_eq m c 1).trans (V_main_arg1 m c)))⟩)
    (GenP.run_main m ρ)

end Cert.KernelIdeal.Final

end
-- ==== Proof.lean ====
/-
  Cross attention between two batches of sequences, against its plain reference, on the extended reals.

  For each of the eight batches, with X and Y the [2048, 128] matrices of the two arguments, the scores are
  E i j = ⟨X i, Y j⟩.  The first result attends from X into Y: row i is Σ_j w i j · Y j with w i · the shifted softmax of
  row i of E.  The second attends from Y into X: row j is Σ_i w' i j · X i with w' · j the shifted softmax of column j
  of E.  The kernel computes the score matrix chunk of rows by chunk of rows into a buffer, forming the first result on
  the way, then reads the buffer chunk of columns by chunk of columns for the second; the reference computes the whole
  score tensor and both softmaxes at once.  Entry by entry both are the same sums of the same terms, so the two agree
  with no use of the finiteness of the inputs.

  The claims: the three programs run without fault and leave their arguments unchanged; the idealized kernel is the
  kernel's own text read at the ideal values (no rewrite to account for); and from memories that agree on the
  arguments the idealized kernel and the idealized reference end with equal results.
-/
import proofs.«162619_j3066606649523_2_alg».proof.Defs
import proofs.«162619_j3066606649523_2_alg».proof.Proof.Gen.Kernel
import proofs.«162619_j3066606649523_2_alg».proof.Proof.Gen.KernelIdeal
import proofs.«162619_j3066606649523_2_alg».proof.Proof.Gen.ReferenceIdeal
import proofs.«162619_j3066606649523_2_alg».proof.Proof.Gen.Pre_finite_inputs
import proofs.«162619_j3066606649523_2_alg».proof.Proof.PatchedKernelFrame
import proofs.«162619_j3066606649523_2_alg».proof.Proof.PatchedKernelIdealFrame
import proofs.«162619_j3066606649523_2_alg».proof.Proof.RefValue
import proofs.«162619_j3066606649523_2_alg».proof.Proof.Final
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.GenP.frame m ρ

/-- The idealized kernel runs and keeps its arguments. -/
theorem frame_kernelIdeal : Cert.frame_KernelIdeal := fun m ρ _ => Cert.KernelIdeal.GenP.frame m ρ

/-- The reference runs and keeps its arguments: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the specification's two results of the (agreeing) arguments. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v23_eq, Cert.ReferenceIdeal.RefValue.first_eq, (hagree c).1, (hagree c).2]
  · rw [(h c).2.1, Cert.ReferenceIdeal.Read.val_main_v24_eq, Cert.ReferenceIdeal.RefValue.second_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
